-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x512 .f32) (main_arg1 : FVec F S4096x4096 .f32) (main_arg2 : FVec F S512x512 .f32) (main_arg3 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S4096x512, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S4096x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let c7_i32 : BitVec 32 := 7#32
  let v13 : BitVec 1 := Scalar.cmpi .slt arg0 c7_i32
  let v14 : BitVec 1 := Scalar.andi v12 v13
  let v15 : BitVec 32 := Scalar.extui v14
  let c0_i32_8 : BitVec 32 := 0#32
  let v16 : BitVec 1 := Scalar.cmpi .ne v15 c0_i32_8
  v16

def k0_cond3 (i : grid0.Coords) : BitVec 1 :=
  let arg0 : BitVec 32 := BitVec.ofNat 32 (i 0).val
  let c7_i32_9 : BitVec 32 := 7#32
  let v17 : BitVec 1 := Scalar.cmpi .eq arg0 c7_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  dot_S512x512_S512x512_S512x512_1_0_0_1_n_n_wf : DotDims.WF S512x512 S512x512 S512x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .f32 = 32 ∨ (Rect.block (s := S4096x4096) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .f32 = 32 ∨ (Rect.block (s := S4096x512) S4096x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.BitsCases.lean ====
/-
  The layer kernel's body at one grid point, case by case.

  At grid point k the body forms  part = adj_k * (h_k * W)  from the point's blocks -- adj_k the k-th block of 512
  columns of the adjacency matrix, h_k the k-th block of 512 rows of the features, W the whole weight matrix -- and
  then does exactly one of three things to the output block, which stays in its buffer from one point to the next:
    * at the first point (k = 0) it stores  part;
    * at the points 0 < k < 7 it stores  old + part;
    * at the last point (k = 7) it stores  max (old + part + bias, 0).
  Here the three branch conditions are decided once over the eight points, it is shown that at every point one of
  them holds (so the output's buffer is stored into at every point), and each case's run of the body says what the
  output's buffer holds afterwards as a function of what the five buffers held before; the four inputs' buffers are
  left as they were.
-/
import proofs.«173250_g20478404067448_cont_sun_m_417_19_alg».proof.Proof.Gen.Kernel.Frame
import proofs.«173250_g20478404067448_cont_sun_m_417_19_alg».proof.Proof.Gen.Kernel.Skeleton
import Idealize.ShloMosaic.Lib.Pipeline.Value

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions over the eight points -/

/-- The first branch is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch is taken at the points strictly between the first and the last. -/
theorem mid_iff : ∀ t : Fin cfg0.N, k0_cond2 (grid0.coords t) = 1#1 ↔ (0 < t.val ∧ t.val < 7) :=
  (by decide +kernel : ∀ t : Fin grid0.N, k0_cond2 (grid0.coords t) = 1#1 ↔ (0 < t.val ∧ t.val < 7))

/-- The third branch is taken at point 7 only. -/
theorem last_iff : ∀ t : Fin cfg0.N, k0_cond3 (grid0.coords t) = 1#1 ↔ t.val = 7 :=
  (by decide +kernel : ∀ t : Fin grid0.N, k0_cond3 (grid0.coords t) = 1#1 ↔ t.val = 7)

/-- The grid's one coordinate as a point of the grid's coordinate space. -/
def coord (k : Fin 8) : grid0.Coords := fun a => match a with | ⟨0, _⟩ => k

theorem coord_self (i : grid0.Coords) : i = coord (i 0) := funext fun a => match a with | ⟨0, _⟩ => rfl

/-- At every value of the coordinate one of the three branches stores into the output's buffer: the output window
    is idle nowhere. -/
theorem out_live (i : grid0.Coords) : cfg0.idle 4 i = false := by
  rw [coord_self i]
  exact (by decide +kernel : ∀ k : Fin 8, idle0 4 (coord k) = false) (i 0)

/-! ## The body's run in each case -/

/-- A block read or stored whole: the zero offsets of every load and store of the body. -/
theorem hz : (![0, 0] : Fin 2 → Nat) = fun _ => 0 := funext fun a => by fin_cases a <;> rfl

/-- One store through the whole-block rectangle covers the block. -/
theorem cover_whole (p : Vec F S4096x512 .f32) (y : S4096x512.Idx) :
    ∃ pc ∈ ([⟨Rect.unit (s := S4096x512) ![0, 0] S4096x512.size Facts₀.inb_S4096x512_S4096x512_0_0, p⟩] : List (View.Piece (Elt F) S4096x512 .f32)), y ∈ pc.1.set :=
  View.cover_of_tiled [⟨Rect.unit (s := S4096x512) ![0, 0] S4096x512.size Facts₀.inb_S4096x512_S4096x512_0_0, p⟩] S4096x512.size (by rfl) y

set_option maxHeartbeats 1000000 in
/-- FIRST POINT. With the adjacency block, the feature block, the weights and the bias in their buffers and anything
    in the output's, the body leaves the inputs as they were and the output's buffer holding  part. -/
theorem run_first (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : k0_cond1 i = 1#1) (h2 : ¬k0_cond2 i = 1#1) (h3 : ¬k0_cond3 i = 1#1)
    (xa : Vec F S4096x512 .f32) (xh : Vec F S512x512 .f32) (xw : Vec F S512x512 .f32) (xb : Vec F S1x512 .f32)
    (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ (∃ d, owns (c : Thread nD τ) a5 fullShare d)
        ∗ (iprop(owns (c : Thread nD τ) a1 fullShare xa ∗ owns (c : Thread nD τ) a2 fullShare xh ∗ owns (c : Thread nD τ) a3 fullShare xw
            ∗ owns (c : Thread nD τ) a4 fullShare xb ∗ owns (c : Thread nD τ) a5 fullShare (k0_pay1 xh xw xa)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

set_option maxHeartbeats 1000000 in
/-- A MIDDLE POINT. With the output's buffer holding  old, the body leaves the inputs as they were and the output's
    buffer holding  old + part. -/
theorem run_mid (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : ¬k0_cond1 i = 1#1) (h2 : k0_cond2 i = 1#1) (h3 : ¬k0_cond3 i = 1#1)
    (xa : Vec F S4096x512 .f32) (xh : Vec F S512x512 .f32) (xw : Vec F S512x512 .f32) (xb : Vec F S1x512 .f32)
    (xo : Vec F S4096x512 .f32) (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare xo
        ∗ (iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare (k0_pay2 xh xw xa xo)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

set_option maxHeartbeats 1000000 in
/-- THE LAST POINT. With the output's buffer holding  old, the body leaves the inputs as they were and the output's
    buffer holding  max (old + part + bias, 0). -/
theorem run_last (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : ¬k0_cond1 i = 1#1) (h2 : ¬k0_cond2 i = 1#1) (h3 : k0_cond3 i = 1#1)
    (xa : Vec F S4096x512 .f32) (xh : Vec F S512x512 .f32) (xw : Vec F S512x512 .f32) (xb : Vec F S1x512 .f32)
    (xo : Vec F S4096x512 .f32) (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare xo
        ∗ (iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare (k0_pay3 xh xw xa xo xb)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

end Cert.Kernel.Acc

end
-- ==== Proof.BitsFrame.lean ====
/-
  The layer kernel's frame: it runs to the end at every grid point, faults nowhere and leaves its argument arrays
  unchanged, and what its output array holds afterwards is named.

  The output block is an accumulator kept in its buffer over the eight grid points and written back once, after the
  last. What the buffer holds after point n is defined by recursion on n:
      acc 0 = part 0,   acc n = acc (n-1) + part n  (0 < n < 7),   acc 7 = max (acc 6 + part 7 + bias, 0),
  where  part n  is computed from the n-th block of columns of the adjacency matrix, the n-th block of rows of the
  features, and the weights. The four inputs' buffers hold their blocks at every point, fetched there or not; the
  output's buffer holds anything at the first point and  acc (n-1)  at point n > 0, because it is not written back
  in between and the body stores into it at every point. With that, the body's run in the point's case
  (first / middle / last) is the body obligation, and the library's frame run gives the frame.
-/
import proofs.«173250_g20478404067448_cont_sun_m_417_19_alg».proof.Proof.BitsCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the output's buffer holds after the body at point n. -/
def accAt (c : Dev nD) : (n : ℕ) → n < cfg0.N → Vec F S4096x512 .f32
  | 0, hn => k0_pay1 (iblk m c 1 ⟨0, hn⟩) (iblk m c 2 ⟨0, hn⟩) (iblk m c 0 ⟨0, hn⟩)
  | n + 1, hn =>
    if n + 1 < 7 then
      k0_pay2 (iblk m c 1 ⟨n + 1, hn⟩) (iblk m c 2 ⟨n + 1, hn⟩) (iblk m c 0 ⟨n + 1, hn⟩) (accAt c n (Nat.lt_of_succ_lt hn))
    else
      k0_pay3 (iblk m c 1 ⟨n + 1, hn⟩) (iblk m c 2 ⟨n + 1, hn⟩) (iblk m c 0 ⟨n + 1, hn⟩) (accAt c n (Nat.lt_of_succ_lt hn)) (iblk m c 3 ⟨n + 1, hn⟩)

/-- At the first point: the first partial product. -/
theorem accAt_first (c : Dev nD) (t : Fin cfg0.N) (h0 : t.val = 0) :
    accAt m c t.val t.isLt = k0_pay1 (iblk m c 1 t) (iblk m c 2 t) (iblk m c 0 t) := by
  obtain ⟨n, hn⟩ := t
  cases n with
  | zero => rfl
  | succ n => exact absurd h0 (Nat.succ_ne_zero n)

/-- At a middle point: what the point before left, plus this point's partial product. -/
theorem accAt_mid (c : Dev nD) (t : Fin cfg0.N) (h0 : 0 < t.val) (h7 : t.val < 7) :
    accAt m c t.val t.isLt = k0_pay2 (iblk m c 1 t) (iblk m c 2 t) (iblk m c 0 t)
      (accAt m c (t.val - 1) (Nat.lt_of_le_of_lt (Nat.sub_le _ _) t.isLt)) := by
  obtain ⟨n, hn⟩ := t
  cases n with
  | zero => exact absurd h0 (Nat.lt_irrefl 0)
  | succ n => exact (if_pos h7).trans rfl

/-- At the last point: what the point before left, plus this point's partial product, plus the bias, cut at zero. -/
theorem accAt_last (c : Dev nD) (t : Fin cfg0.N) (h7 : t.val = 7) :
    accAt m c t.val t.isLt = k0_pay3 (iblk m c 1 t) (iblk m c 2 t) (iblk m c 0 t)
      (accAt m c (t.val - 1) (Nat.lt_of_le_of_lt (Nat.sub_le _ _) t.isLt)) (iblk m c 3 t) := by
  obtain ⟨n, hn⟩ := t
  cases n with
  | zero => exact absurd (show (0 : ℕ) = 7 from h7) (by decide)
  | succ n => exact (if_neg (by dsimp only at h7; omega)).trans rfl

/-! ## The pipeline's proof data -/

/-- The arrays as the region finds them; after the body at point t each input's buffer at its block and the output's
    at the accumulator; the invariant the scoped rest and the generator register, which the body does not touch;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the output's buffer holds what the body left at the point before: it is written back only
    after the last point, it is stored into at every point, and its block is never clipped. -/
theorem before_4 (c : Dev nD) (t : Fin cfg0.N) (h0 : t.val ≠ 0) (d) :
    (dats m 0 c).before 4 t d = accAt m c (t.val - 1) (Nat.lt_of_le_of_lt (Nat.sub_le _ _) t.isLt) := by
  have hN : t.val < 8 := lt_of_lt_of_eq t.isLt (show cfg0.N = 8 from N_0)
  rw [Dat.before_out_kept _ 4 rfl t h0 (Bool.eq_false_iff.mpr fun h => by have := (flush0_4 _).mp h; dsimp only at this; omega)
    out_live (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point: the inputs' buffers hold their blocks; the point is the first, a middle one or the last,
    and the output's buffer holds anything, resp. what the point before left; so the case's run applies. The invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 8 := lt_of_lt_of_eq t.isLt (show cfg0.N = 8 from N_0)
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ ((first_iff t).mpr h0)
      (fun h => by have := (mid_iff t).mp h; omega) (fun h => by have := (last_iff t).mp h; omega)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c t h0]
    by_cases h7 : t.val = 7
    · rw [accAt_last m c t h7]
      iintro ⟨HΦ, Ho, ⟨%d0, H0⟩, ⟨%d1, H1⟩, ⟨%d2, H2⟩, ⟨%d3, H3⟩, ⟨%d4, H4⟩⟩
      iapply (run_last c Set.univ (grid0.coords t) _ _ _ _ _ _ _ _ _ _ (fun h => h0 ((first_iff t).mp h))
        (fun h => by have := (mid_iff t).mp h; omega) ((last_iff t).mpr h7)
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [accAt_mid m c t (Nat.pos_of_ne_zero h0) (by omega)]
      iintro ⟨HΦ, Ho, ⟨%d0, H0⟩, ⟨%d1, H1⟩, ⟨%d2, H2⟩, ⟨%d3, H3⟩, ⟨%d4, H4⟩⟩
      iapply (run_mid c Set.univ (grid0.coords t) _ _ _ _ _ _ _ _ _ _ (fun h => h0 ((first_iff t).mp h))
        ((mid_iff t).mpr ⟨Nat.pos_of_ne_zero h0, by omega⟩) (fun h => h7 ((last_iff t).mp h))
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The library's body obligation, at every point: the output window is idle nowhere, so every buffer is handed back
    at the stated contents. -/
theorem body_obligation (c : Dev nD) : BodyObligation (dats (F := F) m 0 c) (defs₀ (F := F)) Variants.none () Set.univ := fun t => by
  rw [bigSep_W0, bigSep_W0]
  rw [show cfg0.idle 4 (cfg0.grid.coords t) = false from out_live _]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Acc

end
-- ==== Proof.IdealCases.lean ====
/-
  The layer kernel's body at one grid point, case by case.

  At grid point k the body forms  part = adj_k * (h_k * W)  from the point's blocks -- adj_k the k-th block of 512
  columns of the adjacency matrix, h_k the k-th block of 512 rows of the features, W the whole weight matrix -- and
  then does exactly one of three things to the output block, which stays in its buffer from one point to the next:
    * at the first point (k = 0) it stores  part;
    * at the points 0 < k < 7 it stores  old + part;
    * at the last point (k = 7) it stores  max (old + part + bias, 0).
  Here the three branch conditions are decided once over the eight points, it is shown that at every point one of
  them holds (so the output's buffer is stored into at every point), and each case's run of the body says what the
  output's buffer holds afterwards as a function of what the five buffers held before; the four inputs' buffers are
  left as they were.
-/
import proofs.«173250_g20478404067448_cont_sun_m_417_19_alg».proof.Proof.Gen.KernelIdeal.Frame
import proofs.«173250_g20478404067448_cont_sun_m_417_19_alg».proof.Proof.Gen.KernelIdeal.Skeleton
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions over the eight points -/

/-- The first branch is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch is taken at the points strictly between the first and the last. -/
theorem mid_iff : ∀ t : Fin cfg0.N, k0_cond2 (grid0.coords t) = 1#1 ↔ (0 < t.val ∧ t.val < 7) :=
  (by decide +kernel : ∀ t : Fin grid0.N, k0_cond2 (grid0.coords t) = 1#1 ↔ (0 < t.val ∧ t.val < 7))

/-- The third branch is taken at point 7 only. -/
theorem last_iff : ∀ t : Fin cfg0.N, k0_cond3 (grid0.coords t) = 1#1 ↔ t.val = 7 :=
  (by decide +kernel : ∀ t : Fin grid0.N, k0_cond3 (grid0.coords t) = 1#1 ↔ t.val = 7)

/-- The grid's one coordinate as a point of the grid's coordinate space. -/
def coord (k : Fin 8) : grid0.Coords := fun a => match a with | ⟨0, _⟩ => k

theorem coord_self (i : grid0.Coords) : i = coord (i 0) := funext fun a => match a with | ⟨0, _⟩ => rfl

/-- At every value of the coordinate one of the three branches stores into the output's buffer: the output window
    is idle nowhere. -/
theorem out_live (i : grid0.Coords) : cfg0.idle 4 i = false := by
  rw [coord_self i]
  exact (by decide +kernel : ∀ k : Fin 8, idle0 4 (coord k) = false) (i 0)

/-! ## The body's run in each case -/

/-- A block read or stored whole: the zero offsets of every load and store of the body. -/
theorem hz : (![0, 0] : Fin 2 → Nat) = fun _ => 0 := funext fun a => by fin_cases a <;> rfl

/-- One store through the whole-block rectangle covers the block. -/
theorem cover_whole (p : Vec F S4096x512 .f32) (y : S4096x512.Idx) :
    ∃ pc ∈ ([⟨Rect.unit (s := S4096x512) ![0, 0] S4096x512.size Facts₀.inb_S4096x512_S4096x512_0_0, p⟩] : List (View.Piece (Elt F) S4096x512 .f32)), y ∈ pc.1.set :=
  View.cover_of_tiled [⟨Rect.unit (s := S4096x512) ![0, 0] S4096x512.size Facts₀.inb_S4096x512_S4096x512_0_0, p⟩] S4096x512.size (by rfl) y

set_option maxHeartbeats 1000000 in
/-- FIRST POINT. With the adjacency block, the feature block, the weights and the bias in their buffers and anything
    in the output's, the body leaves the inputs as they were and the output's buffer holding  part. -/
theorem run_first (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : k0_cond1 i = 1#1) (h2 : ¬k0_cond2 i = 1#1) (h3 : ¬k0_cond3 i = 1#1)
    (xa : Vec F S4096x512 .f32) (xh : Vec F S512x512 .f32) (xw : Vec F S512x512 .f32) (xb : Vec F S1x512 .f32)
    (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ (∃ d, owns (c : Thread nD τ) a5 fullShare d)
        ∗ (iprop(owns (c : Thread nD τ) a1 fullShare xa ∗ owns (c : Thread nD τ) a2 fullShare xh ∗ owns (c : Thread nD τ) a3 fullShare xw
            ∗ owns (c : Thread nD τ) a4 fullShare xb ∗ owns (c : Thread nD τ) a5 fullShare (k0_pay1 xh xw xa)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

set_option maxHeartbeats 1000000 in
/-- A MIDDLE POINT. With the output's buffer holding  old, the body leaves the inputs as they were and the output's
    buffer holding  old + part. -/
theorem run_mid (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : ¬k0_cond1 i = 1#1) (h2 : k0_cond2 i = 1#1) (h3 : ¬k0_cond3 i = 1#1)
    (xa : Vec F S4096x512 .f32) (xh : Vec F S512x512 .f32) (xw : Vec F S512x512 .f32) (xb : Vec F S1x512 .f32)
    (xo : Vec F S4096x512 .f32) (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare xo
        ∗ (iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare (k0_pay2 xh xw xa xo)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

set_option maxHeartbeats 1000000 in
/-- THE LAST POINT. With the output's buffer holding  old, the body leaves the inputs as they were and the output's
    buffer holding  max (old + part + bias, 0). -/
theorem run_last (c : Dev nD) (E : Set ℕ) (i : grid0.Coords)
    (a1 : Memref sig .tc .vmem S4096x512 .f32) (ha1 : a1.IsWhole) (a2 : Memref sig .tc .vmem S512x512 .f32) (ha2 : a2.IsWhole)
    (a3 : Memref sig .tc .vmem S512x512 .f32) (ha3 : a3.IsWhole) (a4 : Memref sig .tc .vmem S1x512 .f32) (ha4 : a4.IsWhole)
    (a5 : Memref sig .tc .vmem S4096x512 .f32) (ha5 : a5.IsWhole)
    (h1 : ¬k0_cond1 i = 1#1) (h2 : ¬k0_cond2 i = 1#1) (h3 : k0_cond3 i = 1#1)
    (xa : Vec F S4096x512 .f32) (xh : Vec F S512x512 .f32) (xw : Vec F S512x512 .f32) (xb : Vec F S1x512 .f32)
    (xo : Vec F S4096x512 .f32) (K : PUnit → sProp 𝕄) :
    iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare xo
        ∗ (iprop(owns (c : Thread nD τ) a1 fullShare xa ∗ owns (c : Thread nD τ) a2 fullShare xh ∗ owns (c : Thread nD τ) a3 fullShare xw
        ∗ owns (c : Thread nD τ) a4 fullShare xb ∗ owns (c : Thread nD τ) a5 fullShare (k0_pay3 xh xw xa xo xb)) -∗ K ⟨⟩))
      ⊢ wp frame (wpE (defs₀ (F := F)) Variants.none c none) E (cc0__gcn_body i a1 ha1 a2 ha2 a3 ha3 a4 ha4 a5 ha5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_whole _), View.canon_unit_zero (S := S4096x512) hz]
  simp only [View.readAt_eq_ld, View.ld_unit_zero (S := S4096x512) hz, View.ld_unit_zero (S := S512x512) hz,
    View.ld_unit_zero (S := S1x512) hz]

end Cert.KernelIdeal.Acc

end
-- ==== Proof.IdealFrame.lean ====
/-
  The layer kernel's frame: it runs to the end at every grid point, faults nowhere and leaves its argument arrays
  unchanged, and what its output array holds afterwards is named.

  The output block is an accumulator kept in its buffer over the eight grid points and written back once, after the
  last. What the buffer holds after point n is defined by recursion on n:
      acc 0 = part 0,   acc n = acc (n-1) + part n  (0 < n < 7),   acc 7 = max (acc 6 + part 7 + bias, 0),
  where  part n  is computed from the n-th block of columns of the adjacency matrix, the n-th block of rows of the
  features, and the weights. The four inputs' buffers hold their blocks at every point, fetched there or not; the
  output's buffer holds anything at the first point and  acc (n-1)  at point n > 0, because it is not written back
  in between and the body stores into it at every point. With that, the body's run in the point's case
  (first / middle / last) is the body obligation, and the library's frame run gives the frame.
-/
import proofs.«173250_g20478404067448_cont_sun_m_417_19_alg».proof.Proof.IdealCases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the output's buffer holds after the body at point n. -/
def accAt (c : Dev nD) : (n : ℕ) → n < cfg0.N → Vec F S4096x512 .f32
  | 0, hn => k0_pay1 (iblk m c 1 ⟨0, hn⟩) (iblk m c 2 ⟨0, hn⟩) (iblk m c 0 ⟨0, hn⟩)
  | n + 1, hn =>
    if n + 1 < 7 then
      k0_pay2 (iblk m c 1 ⟨n + 1, hn⟩) (iblk m c 2 ⟨n + 1, hn⟩) (iblk m c 0 ⟨n + 1, hn⟩) (accAt c n (Nat.lt_of_succ_lt hn))
    else
      k0_pay3 (iblk m c 1 ⟨n + 1, hn⟩) (iblk m c 2 ⟨n + 1, hn⟩) (iblk m c 0 ⟨n + 1, hn⟩) (accAt c n (Nat.lt_of_succ_lt hn)) (iblk m c 3 ⟨n + 1, hn⟩)

/-- At the first point: the first partial product. -/
theorem accAt_first (c : Dev nD) (t : Fin cfg0.N) (h0 : t.val = 0) :
    accAt m c t.val t.isLt = k0_pay1 (iblk m c 1 t) (iblk m c 2 t) (iblk m c 0 t) := by
  obtain ⟨n, hn⟩ := t
  cases n with
  | zero => rfl
  | succ n => exact absurd h0 (Nat.succ_ne_zero n)

/-- At a middle point: what the point before left, plus this point's partial product. -/
theorem accAt_mid (c : Dev nD) (t : Fin cfg0.N) (h0 : 0 < t.val) (h7 : t.val < 7) :
    accAt m c t.val t.isLt = k0_pay2 (iblk m c 1 t) (iblk m c 2 t) (iblk m c 0 t)
      (accAt m c (t.val - 1) (Nat.lt_of_le_of_lt (Nat.sub_le _ _) t.isLt)) := by
  obtain ⟨n, hn⟩ := t
  cases n with
  | zero => exact absurd h0 (Nat.lt_irrefl 0)
  | succ n => exact (if_pos h7).trans rfl

/-- At the last point: what the point before left, plus this point's partial product, plus the bias, cut at zero. -/
theorem accAt_last (c : Dev nD) (t : Fin cfg0.N) (h7 : t.val = 7) :
    accAt m c t.val t.isLt = k0_pay3 (iblk m c 1 t) (iblk m c 2 t) (iblk m c 0 t)
      (accAt m c (t.val - 1) (Nat.lt_of_le_of_lt (Nat.sub_le _ _) t.isLt)) (iblk m c 3 t) := by
  obtain ⟨n, hn⟩ := t
  cases n with
  | zero => exact absurd (show (0 : ℕ) = 7 from h7) (by decide)
  | succ n => exact (if_neg (by dsimp only at h7; omega)).trans rfl

/-! ## The pipeline's proof data -/

/-- The arrays as the region finds them; after the body at point t each input's buffer at its block and the output's
    at the accumulator; the invariant the scoped rest and the generator register, which the body does not touch;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the output's buffer holds what the body left at the point before: it is written back only
    after the last point, it is stored into at every point, and its block is never clipped. -/
theorem before_4 (c : Dev nD) (t : Fin cfg0.N) (h0 : t.val ≠ 0) (d) :
    (dats m 0 c).before 4 t d = accAt m c (t.val - 1) (Nat.lt_of_le_of_lt (Nat.sub_le _ _) t.isLt) := by
  have hN : t.val < 8 := lt_of_lt_of_eq t.isLt (show cfg0.N = 8 from N_0)
  rw [Dat.before_out_kept _ 4 rfl t h0 (Bool.eq_false_iff.mpr fun h => by have := (flush0_4 _).mp h; dsimp only at this; omega)
    out_live (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point: the inputs' buffers hold their blocks; the point is the first, a middle one or the last,
    and the output's buffer holds anything, resp. what the point before left; so the case's run applies. The invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 8 := lt_of_lt_of_eq t.isLt (show cfg0.N = 8 from N_0)
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ ((first_iff t).mpr h0)
      (fun h => by have := (mid_iff t).mp h; omega) (fun h => by have := (last_iff t).mp h; omega)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c t h0]
    by_cases h7 : t.val = 7
    · rw [accAt_last m c t h7]
      iintro ⟨HΦ, Ho, ⟨%d0, H0⟩, ⟨%d1, H1⟩, ⟨%d2, H2⟩, ⟨%d3, H3⟩, ⟨%d4, H4⟩⟩
      iapply (run_last c Set.univ (grid0.coords t) _ _ _ _ _ _ _ _ _ _ (fun h => h0 ((first_iff t).mp h))
        (fun h => by have := (mid_iff t).mp h; omega) ((last_iff t).mpr h7)
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [accAt_mid m c t (Nat.pos_of_ne_zero h0) (by omega)]
      iintro ⟨HΦ, Ho, ⟨%d0, H0⟩, ⟨%d1, H1⟩, ⟨%d2, H2⟩, ⟨%d3, H3⟩, ⟨%d4, H4⟩⟩
      iapply (run_mid c Set.univ (grid0.coords t) _ _ _ _ _ _ _ _ _ _ (fun h => h0 ((first_iff t).mp h))
        ((mid_iff t).mpr ⟨Nat.pos_of_ne_zero h0, by omega⟩) (fun h => h7 ((last_iff t).mp h))
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The library's body obligation, at every point: the output window is idle nowhere, so every buffer is handed back
    at the stated contents. -/
theorem body_obligation (c : Dev nD) : BodyObligation (dats (F := F) m 0 c) (defs₀ (F := F)) Variants.none () Set.univ := fun t => by
  rw [bigSep_W0, bigSep_W0]
  rw [show cfg0.idle 4 (cfg0.grid.coords t) = false from out_live _]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Acc

end
-- ==== Proof.IdealPart.lean ====
/-
  The layer kernel's three stored values read at an index, on the extended reals.

  With floats read as extended reals a change of float format is the identity and a matrix product into a zero
  accumulator is the plain sum of products. So at entry (p, j):
    * the partial product of a block is   part (p, j) = sum over r < 512 of  a (p, r) * (sum over d < 512 of  h (r, d) * w (d, j)),
      a the block of the adjacency matrix, h the block of the features, w the weights;
    * a middle point stores   old (p, j) + part (p, j);
    * the last point stores   max (old (p, j) + part (p, j) + bias (0, j), 0),   the bias row repeated down the rows.
-/
import proofs.«173250_g20478404067448_cont_sun_m_417_19_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.AccValue

open Idealize.ShloMosaic Idealize.ShloMosaic.ValueIdx Idealize.SL.Sem
open Cert.KernelIdeal Cert.KernelIdeal.Gen

/-! ## The operand indices of the two matrix products -/

theorem inner_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem inner_lhs1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem inner_rhs0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem inner_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem outer_lhs0 (i : S4096x512.Idx) (q : dot_S4096x512_S512x512_S4096x512_1_0_0_1_n_n.contr.Idx) : (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem outer_lhs1 (i : S4096x512.Idx) (q : dot_S4096x512_S512x512_S4096x512_1_0_0_1_n_n.contr.Idx) : (dot_S4096x512_S512x512_S4096x512_1_0_0_1_n_n.lhsIdx i q 1).val = (q ⟨0, by decide⟩).val :=
  dot_S4096x512_S512x512_S4096x512_1_0_0_1_n_n.lhsIdx_val_of_single rfl i q
theorem outer_rhs0 (i : S4096x512.Idx) (q : dot_S4096x512_S512x512_S4096x512_1_0_0_1_n_n.contr.Idx) : (dot_S4096x512_S512x512_S4096x512_1_0_0_1_n_n.rhsIdx i q 0).val = (q ⟨0, by decide⟩).val :=
  dot_S4096x512_S512x512_S4096x512_1_0_0_1_n_n.rhsIdx_val_of_single rfl i q
theorem outer_rhs1 (i : S4096x512.Idx) (q : dot_S4096x512_S512x512_S4096x512_1_0_0_1_n_n.contr.Idx) : (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-! ## The two matrix products as sums -/

/-- The product of the feature block with the weights, entry (a, b): row a against column b. -/
theorem inner_apply (l : FVec Ideal S512x512 .bf16) (r : FVec Ideal S512x512 .bf16) (a : Fin 512) (b : Fin 512) :
    matmul dot_S512x512_S512x512_S512x512_1_0_0_1_n_n none l r (constant S512x512 .f32 0x00000000#32) (ix2 a b) = ∑ k : Fin 512, l (ix2 a k) * r (ix2 k b) := by
  refine (Ideal.matmul_constant_zero_apply dot_S512x512_S512x512_S512x512_1_0_0_1_n_n none l r (ix2 a b)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 a b) ((ValueIdx.contrEquiv1 dot_S512x512_S512x512_S512x512_1_0_0_1_n_n 512 rfl rfl).symm k) = ix2 a k := funext fun x => Fin.ext (by
    match x with
    | ⟨0, _⟩ => exact inner_lhs0 _ _
    | ⟨1, _⟩ => exact (inner_lhs1 _ _).trans hk)
  have er : dot_S512x512_S512x512_S512x512_1_0_0_1_n_n.rhsIdx (ix2 a b) ((ValueIdx.contrEquiv1 dot_S512x512_S512x512_S512x512_1_0_0_1_n_n 512 rfl rfl).symm k) = ix2 k b := funext fun x => Fin.ext (by
    match x with
    | ⟨0, _⟩ => exact (inner_rhs0 _ _).trans hk
    | ⟨1, _⟩ => exact inner_rhs1 _ _)
  rw [el, er]

/-- The product of the adjacency block with that, entry (a, b): row a against column b. -/
theorem outer_apply (l : FVec Ideal S4096x512 .bf16) (r : FVec Ideal S512x512 .bf16) (a : Fin 4096) (b : Fin 512) :
    matmul dot_S4096x512_S512x512_S4096x512_1_0_0_1_n_n none l r (constant S4096x512 .f32 0x00000000#32) (ix2 a b) = ∑ k : Fin 512, l (ix2 a k) * r (ix2 k b) := by
  refine (Ideal.matmul_constant_zero_apply dot_S4096x512_S512x512_S4096x512_1_0_0_1_n_n none l r (ix2 a b)).trans ?_
  rw [← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 a b) ((ValueIdx.contrEquiv1 dot_S4096x512_S512x512_S4096x512_1_0_0_1_n_n 512 rfl rfl).symm k) = ix2 a k := funext fun x => Fin.ext (by
    match x with
    | ⟨0, _⟩ => exact outer_lhs0 _ _
    | ⟨1, _⟩ => exact (outer_lhs1 _ _).trans hk)
  have er : dot_S4096x512_S512x512_S4096x512_1_0_0_1_n_n.rhsIdx (ix2 a b) ((ValueIdx.contrEquiv1 dot_S4096x512_S512x512_S4096x512_1_0_0_1_n_n 512 rfl rfl).symm k) = ix2 k b := funext fun x => Fin.ext (by
    match x with
    | ⟨0, _⟩ => exact (outer_rhs0 _ _).trans hk
    | ⟨1, _⟩ => exact outer_rhs1 _ _)
  rw [el, er]

/-! ## The stored values at an entry -/

/-- The partial product of one block at entry (p, j). -/
theorem part_apply (xh xw : Vec Ideal S512x512 .f32) (xa : Vec Ideal S4096x512 .f32) (p : Fin 4096) (j : Fin 512) :
    k0_pay1 (F := Ideal) xh xw xa (ix2 p j) = ∑ r : Fin 512, xa (ix2 p r) * ∑ d : Fin 512, xh (ix2 r d) * xw (ix2 d j) := by
  unfold k0_pay1
  refine (outer_apply _ _ p j).trans ?_
  refine Finset.sum_congr rfl fun r _ => ?_
  rw [truncf_apply, truncf_apply, inner_apply]
  simp only [truncf_apply]

/-- A middle point's stored value at any entry: the old contents plus the block's partial product. -/
theorem mid_apply (xh xw : Vec Ideal S512x512 .f32) (xa xo : Vec Ideal S4096x512 .f32) (i : S4096x512.Idx) :
    k0_pay2 (F := Ideal) xh xw xa xo i = xo i + k0_pay1 (F := Ideal) xh xw xa i := by
  unfold k0_pay2
  rw [shapeCast_self]
  rfl

/-- The last point's stored value at entry (p, j): the old contents plus the block's partial product plus the bias of
    column j, cut off below at zero. -/
theorem last_apply (xh xw : Vec Ideal S512x512 .f32) (xa xo : Vec Ideal S4096x512 .f32) (xb : Vec Ideal S1x512 .f32)
    (p : Fin 4096) (j : Fin 512) :
    k0_pay3 (F := Ideal) xh xw xa xo xb (ix2 p j)
      = max ((xo (ix2 p j) + k0_pay1 (F := Ideal) xh xw xa (ix2 p j)) + xb (ix2 0 j)) (Ideal.ofBits .f32 0x00000000#32) := by
  unfold k0_pay3
  rw [shapeCast_self, shapeCast_self]
  have eb : broadcastTo S4096x512 xb Facts₀.broadcasts_S1x512_S4096x512 (ix2 p j) = xb (ix2 0 j) :=
    broadcastTo_apply xb _ (ix2 p j) (ix2 0 j) (fun a => match a with
      | ⟨0, _⟩ => by show (0 : ℕ) = if (1 : ℕ) = 1 then 0 else p.val; rw [if_pos rfl]
      | ⟨1, _⟩ => by show j.val = if (512 : ℕ) = 1 then 0 else j.val; rw [if_neg (by decide)])
  show max ((xo (ix2 p j) + k0_pay1 (F := Ideal) xh xw xa (ix2 p j)) + broadcastTo S4096x512 xb Facts₀.broadcasts_S1x512_S4096x512 (ix2 p j)) _ = _
  rw [eb]
  rfl

end Cert.KernelIdeal.AccValue

end
-- ==== Proof.IdealBlocks.lean ====
/-
  The layer kernel's blocks as entries of the argument arrays.

  At grid point t the adjacency window holds columns 512 t .. 512 t + 511 of the adjacency matrix (all 4096 rows),
  the feature window holds rows 512 t .. 512 t + 511 of the features, the weight window holds the whole weight matrix,
  and the bias window holds the bias as one row: the program lays the bias out as a [1, 512] array before the kernel
  starts, so its entry (0, j) is bias j. A block's entry sits in the array at  block index * block size + the
  coordinate inside the block, along each axis; the block indices are decided once over the eight points.
-/
import proofs.«173250_g20478404067448_cont_sun_m_417_19_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.AccValue

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- The adjacency window's block index: row block 0, column block t. -/
theorem adj_index : ∀ t : Fin cfg0.N, win0_0.index t 0 = 0 ∧ win0_0.index t 1 = t.val :=
  (by decide +kernel : ∀ t : Fin grid0.N, win0_0.index t 0 = 0 ∧ win0_0.index t 1 = t.val)

/-- The feature window's block index: row block t, column block 0. -/
theorem feat_index : ∀ t : Fin cfg0.N, win0_1.index t 0 = t.val ∧ win0_1.index t 1 = 0 :=
  (by decide +kernel : ∀ t : Fin grid0.N, win0_1.index t 0 = t.val ∧ win0_1.index t 1 = 0)

/-- The weight window's block index: the one block. -/
theorem weight_index : ∀ t : Fin cfg0.N, win0_2.index t 0 = 0 ∧ win0_2.index t 1 = 0 :=
  (by decide +kernel : ∀ t : Fin grid0.N, win0_2.index t 0 = 0 ∧ win0_2.index t 1 = 0)

/-- The bias window's block index: the one block. -/
theorem bias_index : ∀ t : Fin cfg0.N, win0_3.index t 0 = 0 ∧ win0_3.index t 1 = 0 :=
  (by decide +kernel : ∀ t : Fin grid0.N, win0_3.index t 0 = 0 ∧ win0_3.index t 1 = 0)

/-- Entry (p, r) of the adjacency block at point t is entry (p, 512 t + r) of the adjacency matrix. -/
theorem adj_block (c : Dev nD) (t : Fin cfg0.N) (p : Fin 4096) (r : Fin 512) (k : Fin 4096) (hk : k.val = 512 * t.val + r.val) :
    (iblk m c 0 t : Vec F S4096x512 .f32) (ix2 p r) = m ((c : Thread nD τ).loc main_arg1) (ix2 p k) := by
  have hi := adj_index t
  unfold iblk
  rw [View.read_apply]
  show V m c main_arg1 _ = _
  rw [V_main_arg1]
  congr 1
  funext a
  apply Fin.ext
  match a with
  | ⟨0, _⟩ => show win0_0.index t 0 * 4096 + 1 * p.val = p.val; rw [hi.1]; omega
  | ⟨1, _⟩ => show win0_0.index t 1 * 512 + 1 * r.val = k.val; rw [hi.2, hk]; omega

/-- Entry (r, d) of the feature block at point t is entry (512 t + r, d) of the features. -/
theorem feat_block (c : Dev nD) (t : Fin cfg0.N) (r : Fin 512) (d : Fin 512) (k : Fin 4096) (hk : k.val = 512 * t.val + r.val) :
    (iblk m c 1 t : Vec F S512x512 .f32) (ix2 r d) = m ((c : Thread nD τ).loc main_arg0) (ix2 k d) := by
  have hi := feat_index t
  unfold iblk
  rw [View.read_apply]
  show V m c main_arg0 _ = _
  rw [V_main_arg0]
  congr 1
  funext a
  apply Fin.ext
  match a with
  | ⟨0, _⟩ => show win0_1.index t 0 * 512 + 1 * r.val = k.val; rw [hi.1, hk]; omega
  | ⟨1, _⟩ => show win0_1.index t 1 * 512 + 1 * d.val = d.val; rw [hi.2]; omega

/-- The weight block at any point is the weight matrix. -/
theorem weight_block (c : Dev nD) (t : Fin cfg0.N) (d : Fin 512) (j : Fin 512) :
    (iblk m c 2 t : Vec F S512x512 .f32) (ix2 d j) = m ((c : Thread nD τ).loc main_arg2) (ix2 d j) := by
  have hi := weight_index t
  unfold iblk
  rw [View.read_apply]
  show V m c main_arg2 _ = _
  rw [V_main_arg2]
  congr 1
  funext a
  apply Fin.ext
  match a with
  | ⟨0, _⟩ => show win0_2.index t 0 * 512 + 1 * d.val = d.val; rw [hi.1]; omega
  | ⟨1, _⟩ => show win0_2.index t 1 * 512 + 1 * j.val = j.val; rw [hi.2]; omega

/-- The [1, 512] array the kernel's bias window reads is the bias laid out as one row. -/
theorem bias_row (c : Dev nD) :
    (V m c main_v0 : S1x512.Idx → Elt F .f32) = shapeCast S1x512 (m ((c : Thread nD τ).loc main_arg3)) Facts₀.shapeCasts_S512_S1x512 := by
  dsimp only [V, hostOps0]
  after_results
  rfl

/-- Entry (0, j) of the bias block at any point is bias j. -/
theorem bias_block (c : Dev nD) (t : Fin cfg0.N) (j : Fin 512) :
    (iblk m c 3 t : Vec F S1x512 .f32) (ix2 0 j) = m ((c : Thread nD τ).loc main_arg3) (ix1 j) := by
  have hi := bias_index t
  unfold iblk
  rw [View.read_apply]
  show (V m c main_v0 : S1x512.Idx → Elt F .f32) _ = _
  rw [bias_row]
  refine (shapeCast_apply _ _ _ (ix1 j) ?_).trans rfl
  rw [Shape.rowMajor_val_one, Shape.rowMajor_val_two]
  show j.val = (win0_3.index t 0 * 1 + 1 * 0) * 512 + (win0_3.index t 1 * 512 + 1 * j.val)
  rw [hi.1, hi.2]; omega

end Cert.KernelIdeal.AccValue

end
-- ==== Proof.LibBlockSum.lean ====
/-
  A finite sum evaluated in blocks of consecutive indices.

  In a commutative monoid, for a block width B and a number of blocks n:
    * the sum over the first B * n natural numbers is the sum over t < n of the sums over the B numbers from B * t on;
    * so a sum over an index type with B * n elements is the sum of its n blocks' sums;
    * and a sum over B indices whose r-th entry is entry B * t + r of a family is that family's block t.
  The blocks' sums added one after the other (the blocks 0 .. n, then block n + 1) are the library's sum over a range
  with one more element. Only associativity and commutativity of addition are used, so all of this holds on the
  extended reals with no finiteness condition: it is the law that joins an accumulation over K-blocks (a matrix
  product cut along its contracted axis and accumulated block by block) to the whole sum.
-/
import Mathlib.Algebra.BigOperators.Fin
import Mathlib.Algebra.BigOperators.Intervals

namespace Cert.LibBlockSum

variable {M : Type*} [AddCommMonoid M]

/-- The sum over the first B * n natural numbers is the sum, block by block, of n blocks of B consecutive numbers. -/
theorem sum_range_blocks (g : ℕ → M) (B : ℕ) :
    ∀ n, ∑ k ∈ Finset.range (B * n), g k = ∑ t ∈ Finset.range n, ∑ r ∈ Finset.range B, g (B * t + r)
  | 0 => by simp
  | n + 1 => by
    rw [Nat.mul_succ, Finset.sum_range_add, sum_range_blocks g B n, Finset.sum_range_succ]

/-- A family indexed by N indices, continued by zero to every natural number. -/
def total {N : ℕ} (f : Fin N → M) (k : ℕ) : M := if h : k < N then f ⟨k, h⟩ else 0

theorem total_val {N : ℕ} (f : Fin N → M) (k : Fin N) : total f k.val = f k := dif_pos k.isLt

theorem total_of_lt {N : ℕ} (f : Fin N → M) (k : ℕ) (h : k < N) : total f k = f ⟨k, h⟩ := dif_pos h

/-- The sum of block t of width B: the B indices from B * t on. -/
def block {N : ℕ} (B : ℕ) (f : Fin N → M) (t : ℕ) : M := ∑ r : Fin B, total f (B * t + r.val)

/-- A sum over B * n indices is the sum of its n blocks of width B. -/
theorem sum_eq_blocks {N : ℕ} (B n : ℕ) (hN : N = B * n) (f : Fin N → M) :
    ∑ k, f k = ∑ t ∈ Finset.range n, block B f t := by
  subst hN
  have e : ∑ k, f k = ∑ k : Fin (B * n), total f k.val := Finset.sum_congr rfl fun k _ => (total_val f k).symm
  rw [e, Fin.sum_univ_eq_sum_range (total f) (B * n), sum_range_blocks (total f) B n]
  refine Finset.sum_congr rfl fun t _ => ?_
  exact (Fin.sum_univ_eq_sum_range (fun r => total f (B * t + r)) B).symm

/-- A sum over B indices whose r-th entry is entry B * t + r of the family is block t's sum. -/
theorem block_eq {N : ℕ} (B : ℕ) (f : Fin N → M) (t : ℕ) (g : Fin B → M) (hlt : ∀ r : Fin B, B * t + r.val < N)
    (hg : ∀ r : Fin B, g r = f ⟨B * t + r.val, hlt r⟩) : ∑ r, g r = block B f t :=
  Finset.sum_congr rfl fun r _ => (hg r).trans (total_of_lt f _ (hlt r)).symm

/-- The blocks 0 .. n + 1 added up are the blocks 0 .. n added up, plus block n + 1. -/
theorem blocks_succ {N : ℕ} (B : ℕ) (f : Fin N → M) (n : ℕ) :
    ∑ t ∈ Finset.range (n + 1 + 1), block B f t = ∑ t ∈ Finset.range (n + 1), block B f t + block B f (n + 1) :=
  Finset.sum_range_succ _ (n + 1)

end Cert.LibBlockSum
-- ==== Proof.LayerSpec.lean ====
/-
  The graph-convolution layer as one function of its four arrays, and the one law its blocked evaluation needs.

  For features h [4096, 512], adjacency adj [4096, 4096], weights W [512, 512] and bias b [512] the layer is
      out (p, j) = max ( (sum over k < 4096 of  adj (p, k) * (sum over d < 512 of  h (k, d) * W (d, j)))  +  b j , 0 ).
  A blocked evaluation cuts the sum over k into eight blocks of 512 consecutive indices and adds the blocks' sums one
  after the other. In a commutative monoid that is the same sum (the general law is stated for any block width and
  any number of blocks in its own module; here it is taken at width 512 and eight blocks). Only associativity and
  commutativity of addition are used, so the law holds on the extended reals with no condition on the entries.
-/
import Idealize.ShloMosaic.PureOps.Ideal
import Idealize.ShloMosaic.Lib.ValueIdx
import proofs.«173250_g20478404067448_cont_sun_m_417_19_alg».proof.Proof.LibBlockSum

noncomputable section

namespace Cert.Layer

open Idealize.ShloMosaic Idealize.ShloMosaic.ValueIdx

/-! ## A sum in blocks -/

section Blocks

variable {M : Type*} [AddCommMonoid M]

/-- The sum of block t of the 4096 terms: the 512 indices from 512 * t on. -/
abbrev block (f : Fin 4096 → M) (t : ℕ) : M := Cert.LibBlockSum.block 512 f t

/-- The whole sum is the sum of its eight blocks. -/
theorem sum_eq_blocks (f : Fin 4096 → M) : ∑ k, f k = ∑ t ∈ Finset.range 8, block f t :=
  Cert.LibBlockSum.sum_eq_blocks 512 8 rfl f

/-- A sum over 512 indices whose r-th entry is entry 512 * t + r of the family is block t's sum. -/
theorem block_eq (f : Fin 4096 → M) (t : ℕ) (ht : t < 8) (g : Fin 512 → M)
    (hg : ∀ r : Fin 512, g r = f ⟨512 * t + r.val, by have := r.isLt; omega⟩) : ∑ r, g r = block f t :=
  Cert.LibBlockSum.block_eq 512 f t g (fun r => by have := r.isLt; omega) hg

end Blocks

/-! ## The layer -/

/-- One term of the outer sum at output entry (p, j): adj (p, k) times row k of h against column j of W. -/
def term (h : (⟨2, ![4096, 512]⟩ : Shape).Idx → EReal) (adj : (⟨2, ![4096, 4096]⟩ : Shape).Idx → EReal)
    (W : (⟨2, ![512, 512]⟩ : Shape).Idx → EReal) (p : Fin 4096) (j : Fin 512) (k : Fin 4096) : EReal :=
  adj (ix2 p k) * ∑ d : Fin 512, h (ix2 k d) * W (ix2 d j)

/-- The layer's output, entry by entry: relu (adj * (h * W) + b), the zero of the cut-off kept as its float word. -/
def layer (h : (⟨2, ![4096, 512]⟩ : Shape).Idx → EReal) (adj : (⟨2, ![4096, 4096]⟩ : Shape).Idx → EReal)
    (W : (⟨2, ![512, 512]⟩ : Shape).Idx → EReal) (b : (⟨1, ![512]⟩ : Shape).Idx → EReal) :
    (⟨2, ![4096, 512]⟩ : Shape).Idx → EReal :=
  fun i => max ((∑ k : Fin 4096, term h adj W (i 0) (i 1) k) + b (ix1 (i 1))) (Ideal.ofBits .f32 0x00000000#32)

theorem layer_apply (h : (⟨2, ![4096, 512]⟩ : Shape).Idx → EReal) (adj : (⟨2, ![4096, 4096]⟩ : Shape).Idx → EReal)
    (W : (⟨2, ![512, 512]⟩ : Shape).Idx → EReal) (b : (⟨1, ![512]⟩ : Shape).Idx → EReal) (p : Fin 4096) (j : Fin 512) :
    layer h adj W b (ix2 p j)
      = max ((∑ k : Fin 4096, term h adj W p j k) + b (ix1 j)) (Ideal.ofBits .f32 0x00000000#32) := rfl

end Cert.Layer

end
-- ==== Proof.IdealValue.lean ====
/-
  What the layer kernel's output array holds after the run, on the extended reals: the layer.

  At entry (p, j) write  term k = adj (p, k) * (sum over d of  h (k, d) * W (d, j)).  The partial product the body forms
  at grid point t is the sum of  term  over block t (the 512 indices from 512 t on), because the point's adjacency block
  is columns 512 t .. of adj and its feature block rows 512 t .. of h. So by induction on the point the accumulator
  after point n < 7 is the sum of the blocks 0 .. n, and after the last point it is
      max ((blocks 0 .. 6) + block 7 + b j, 0) = max ((sum over all k of  term k) + b j, 0),
  the layer's entry: a sum over 4096 indices is the sum of its eight blocks. The output block is the whole array and is
  written back once, after the last point, so the array ends holding the layer.
-/
import proofs.«173250_g20478404067448_cont_sun_m_417_19_alg».proof.Proof.IdealFrame
import proofs.«173250_g20478404067448_cont_sun_m_417_19_alg».proof.Proof.IdealPart
import proofs.«173250_g20478404067448_cont_sun_m_417_19_alg».proof.Proof.IdealBlocks
import proofs.«173250_g20478404067448_cont_sun_m_417_19_alg».proof.Proof.LayerSpec

set_option maxRecDepth 16384

noncomputable section

namespace Cert.KernelIdeal.AccValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc

variable (m : (ℓ : Loc nD τ sig) → Buf (Elt Ideal) ℓ) (ρ : Dev nD → PrngReg)

/-- The terms of the outer sum at output entry (p, j), over the argument arrays as launched. -/
abbrev termAt (c : Dev nD) (p : Fin 4096) (j : Fin 512) : Fin 4096 → EReal :=
  Cert.Layer.term (m ((c : Thread nD τ).loc main_arg0)) (m ((c : Thread nD τ).loc main_arg1)) (m ((c : Thread nD τ).loc main_arg2)) p j

/-- The layer of the argument arrays, as contents of the result array. -/
abbrev result (c : Dev nD) : Buf (Elt Ideal) ((c : Thread nD τ).loc main_v1) :=
  Cert.Layer.layer (m ((c : Thread nD τ).loc main_arg0)) (m ((c : Thread nD τ).loc main_arg1)) (m ((c : Thread nD τ).loc main_arg2)) (m ((c : Thread nD τ).loc main_arg3))

/-- The partial product the body forms at point t, at entry (p, j), is the sum of the terms of block t. -/
theorem part_block (c : Dev nD) (t : Fin cfg0.N) (p : Fin 4096) (j : Fin 512) :
    k0_pay1 (F := Ideal) (iblk m c 1 t) (iblk m c 2 t) (iblk m c 0 t) (ix2 p j) = Cert.Layer.block (termAt m c p j) t.val := by
  have hN : t.val < 8 := lt_of_lt_of_eq t.isLt (show cfg0.N = 8 from N_0)
  refine (part_apply (iblk m c 1 t) (iblk m c 2 t) (iblk m c 0 t) p j).trans ?_
  refine Cert.Layer.block_eq (termAt m c p j) t.val hN _ fun r => ?_
  have hlt : 512 * t.val + r.val < 4096 := by have := r.isLt; omega
  exact congrArg₂ (· * ·) (adj_block m c t p r ⟨512 * t.val + r.val, hlt⟩ rfl)
    (Finset.sum_congr rfl fun d _ => congrArg₂ (· * ·) (feat_block m c t r d ⟨512 * t.val + r.val, hlt⟩ rfl) (weight_block m c t d j))

/-- After point n < 7 the accumulator's entry (p, j) is the sum of the blocks 0 .. n. -/
theorem acc_eq (c : Dev nD) (p : Fin 4096) (j : Fin 512) : ∀ (n : ℕ) (hn : n < cfg0.N), n < 7 →
    accAt m c n hn (ix2 p j) = ∑ t ∈ Finset.range (n + 1), Cert.Layer.block (termAt m c p j) t
  | 0, hn, _ =>
    (congrFun (accAt_first m c ⟨0, hn⟩ rfl) (ix2 p j)).trans
      ((part_block m c ⟨0, hn⟩ p j).trans (Finset.sum_range_one _).symm)
  | n + 1, hn, h7 => by
    have e := congrFun (accAt_mid m c ⟨n + 1, hn⟩ (Nat.succ_pos n) h7) (ix2 p j)
    have ih := acc_eq c p j n (Nat.lt_of_succ_lt hn) (by omega)
    have hp := part_block m c ⟨n + 1, hn⟩ p j
    calc accAt m c (n + 1) hn (ix2 p j)
        = accAt m c n (Nat.lt_of_succ_lt hn) (ix2 p j)
            + k0_pay1 (F := Ideal) (iblk m c 1 ⟨n + 1, hn⟩) (iblk m c 2 ⟨n + 1, hn⟩) (iblk m c 0 ⟨n + 1, hn⟩) (ix2 p j) :=
          e.trans (mid_apply (iblk m c 1 ⟨n + 1, hn⟩) (iblk m c 2 ⟨n + 1, hn⟩) (iblk m c 0 ⟨n + 1, hn⟩)
            (accAt m c n (Nat.lt_of_succ_lt hn)) (ix2 p j))
      _ = ∑ t ∈ Finset.range (n + 1 + 1), Cert.Layer.block (termAt m c p j) t := by
          rw [ih, hp, Finset.sum_range_succ _ (n + 1)]

theorem seven_lt : (7 : ℕ) < cfg0.N := by rw [show cfg0.N = 8 from N_0]; decide

/-- After the last point the accumulator's entry (p, j) is the layer's. -/
theorem acc_last_eq (c : Dev nD) (p : Fin 4096) (j : Fin 512) :
    accAt m c 7 seven_lt (ix2 p j) = result m c (ix2 p j) := by
  have e := congrFun (accAt_last m c ⟨7, seven_lt⟩ rfl) (ix2 p j)
  have ih := acc_eq m c p j 6 (Nat.lt_of_succ_lt seven_lt) (by decide)
  have hp := part_block m c ⟨7, seven_lt⟩ p j
  have hb := bias_block m c ⟨7, seven_lt⟩ j
  calc accAt m c 7 seven_lt (ix2 p j)
      = max ((accAt m c 6 (Nat.lt_of_succ_lt seven_lt) (ix2 p j)
            + k0_pay1 (F := Ideal) (iblk m c 1 ⟨7, seven_lt⟩) (iblk m c 2 ⟨7, seven_lt⟩) (iblk m c 0 ⟨7, seven_lt⟩) (ix2 p j))
            + (iblk m c 3 ⟨7, seven_lt⟩ : Vec Ideal S1x512 .f32) (ix2 0 j)) (Ideal.ofBits .f32 0x00000000#32) :=
        e.trans (last_apply (iblk m c 1 ⟨7, seven_lt⟩) (iblk m c 2 ⟨7, seven_lt⟩) (iblk m c 0 ⟨7, seven_lt⟩)
          (accAt m c 6 (Nat.lt_of_succ_lt seven_lt)) (iblk m c 3 ⟨7, seven_lt⟩) p j)
    _ = max (((∑ t ∈ Finset.range 7, Cert.Layer.block (termAt m c p j) t) + Cert.Layer.block (termAt m c p j) 7)
            + (m ((c : Thread nD τ).loc main_arg3)) (ix1 j)) (Ideal.ofBits .f32 0x00000000#32) := by
        rw [ih, hp, hb]
    _ = result m c (ix2 p j) := by
        rw [← Finset.sum_range_succ (Cert.Layer.block (termAt m c p j)) 7, ← Cert.Layer.sum_eq_blocks]
        rfl

/-- So after the last point the accumulator is the layer. -/
theorem acc_last (c : Dev nD) : accAt m c 7 seven_lt = result m c :=
  funext fun i => by
    obtain ⟨p, j, rfl⟩ : ∃ (p : Fin 4096) (j : Fin 512), i = ix2 p j := ⟨i 0, i 1, eq_ix2 i⟩
    exact acc_last_eq m c p j

/-- The one write-back, after point 7, writes the layer: block (0, 0) of the [4096, 512] array is the array. -/
theorem flushed_eq (c : Dev nD) (t : Fin cfg0.N) (hf : (cfg0.win 4).flush t = true) :
    (dats m 0 c).flushed 4 t = ((cfg0.win 4).blk t).view.read (Elt Ideal) (result m c) := by
  have hN : t.val < 8 := lt_of_lt_of_eq t.isLt (show cfg0.N = 8 from N_0)
  have h7 : t.val = 7 := by have := (flush0_4 t).mp hf; omega
  obtain rfl : t = t0_7 := Fin.ext h7
  show (cfg0.win 4).cut (grid0.coords t0_7) ((dats m 0 c).after 4 t0_7) = _
  rw [after_4]
  show (cfg0.win 4).cut (grid0.coords t0_7) (accAt m c 7 seven_lt) = _
  rw [acc_last]
  have hz' : (fun a => win0_4.index t0_7 a * main_v1.ty.shape.size a) = fun _ => 0 := funext fun a => by fin_cases a <;> decide
  exact (Memref.read_access_unit_zero (Elt Ideal) main_v1 hz' (fun a => by rw [congrFun hz' a]; simp) (result m c)).symm

/-- So the result array ends holding the layer: point 7's block covers it. -/
theorem final_out (c : Dev nD) : (dats m 0 c).arrAt 4 cfg0.N = result m c :=
  (dats m 0 c).arrAt_eq_of_cover 4 (result m c) (flushed_eq m c) fun i =>
    ⟨t0_7, (flush0_4 t0_7).mpr rfl, by
      show i ∈ ((View.whole main_v1).slice (win0_4.rect t0_7)).set
      rw [View.set_slice_whole, Rect.mem_set_unit]
      intro a
      have h0 : (i 0 : Nat) < 4096 := (i 0).isLt
      have h1 : (i 1 : Nat) < 512 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 4096 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 512 from by decide +kernel]; omega⟩

/-- The run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_out m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.AccValue

end
-- ==== Proof.RefValue.lean ====
/-
  The reference computes the layer.

  The reference program is two whole matrix products, the bias repeated down the rows, an addition and a cut-off at
  zero. Read at entry (p, j) on the extended reals, its result is
      max ((sum over k < 4096 of  adj (p, k) * (sum over d < 512 of  h (k, d) * W (d, j))) + b j, 0),
  the layer's entry: each matrix product is the plain sum of products, and the repeated bias at (p, j) is b j.
-/
import proofs.«173250_g20478404067448_cont_sun_m_417_19_alg».proof.Defs
import proofs.«173250_g20478404067448_cont_sun_m_417_19_alg».proof.Proof.Gen.ReferenceIdeal.Read
import proofs.«173250_g20478404067448_cont_sun_m_417_19_alg».proof.Proof.LayerSpec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Gen Cert.ReferenceIdeal.Read

/-- The outer product's left operand index at output (p, j), contraction index k: (p, k). -/
theorem outer_left (p : Fin 4096) (j : Fin 512) (k : Fin 4096) : lidx_main_v1 (ix2 p j) k = ix2 p k :=
  funext fun a => Fin.ext (by match a with | ⟨0, _⟩ => rfl | ⟨1, _⟩ => rfl)

/-- Its right operand index: (k, j). -/
theorem outer_right (p : Fin 4096) (j : Fin 512) (k : Fin 4096) : ridx_main_v1 (ix2 p j) k = ix2 k j :=
  funext fun a => Fin.ext (by match a with | ⟨0, _⟩ => rfl | ⟨1, _⟩ => rfl)

/-- The inner product's left operand index at output (k, j), contraction index d: (k, d). -/
theorem inner_left (k : Fin 4096) (j : Fin 512) (d : Fin 512) : lidx_main_v0 (ix2 k j) d = ix2 k d :=
  funext fun a => Fin.ext (by match a with | ⟨0, _⟩ => rfl | ⟨1, _⟩ => rfl)

/-- Its right operand index: (d, j). -/
theorem inner_right (k : Fin 4096) (j : Fin 512) (d : Fin 512) : ridx_main_v0 (ix2 k j) d = ix2 d j :=
  funext fun a => Fin.ext (by match a with | ⟨0, _⟩ => rfl | ⟨1, _⟩ => rfl)

/-- The repeated bias at (p, j) reads the bias at j. -/
theorem bias_idx (p : Fin 4096) (j : Fin 512) : idx_main_v2 (idx_main_v3 (ix2 p j)) = ix1 j :=
  funext fun a => Fin.ext (by match a with | ⟨0, _⟩ => rfl)

/-- The reference's result is the layer of its four arguments. -/
theorem ref_eq_layer (x0 : (⟨S4096x512, .f32⟩ : BufTy).Contents (Elt Ideal)) (x1 : (⟨S4096x4096, .f32⟩ : BufTy).Contents (Elt Ideal))
    (x2 : (⟨S512x512, .f32⟩ : BufTy).Contents (Elt Ideal)) (x3 : (⟨S512, .f32⟩ : BufTy).Contents (Elt Ideal)) :
    val_main_v5 (F := Ideal) x0 x1 x2 x3 = Cert.Layer.layer x0 x1 x2 x3 := by
  funext i
  obtain ⟨p, j, rfl⟩ : ∃ (p : Fin 4096) (j : Fin 512), i = ix2 p j := ⟨i 0, i 1, eq_ix2 i⟩
  rw [val_main_v5_apply, val_main_v4_apply, val_main_v1_apply, val_main_v3_apply, val_main_v2_apply,
    val_main_call0_v0_apply, val_main_call0_cst_apply, Cert.Layer.layer_apply]
  simp only [val_main_v0_apply, outer_left, outer_right, inner_left, inner_right, bias_idx]
  rfl

end Cert.ReferenceIdeal.RefValue

end
-- ==== Proof.lean ====
/-
  A graph-convolution layer, blocked over the neighbours, against its plain form.

  The reference computes  out = relu (adj * (h * W) + b)  with two whole matrix products: for features h [4096, 512],
  adjacency adj [4096, 4096], weights W [512, 512] and bias b [512],
      out (p, j) = max ((sum over k < 4096 of  adj (p, k) * (sum over d < 512 of  h (k, d) * W (d, j))) + b j, 0).
  The kernel walks eight grid points. At point t it takes columns 512 t .. 512 t + 511 of adj and the matching rows of h,
  forms the partial product  adj_t * (h_t * W)  and adds it into the output block, which stays in its buffer over all
  eight points: the first point stores the partial product, the points between add theirs, the last adds its own, adds
  the bias and cuts off at zero; only then is the block written back.

  Read on the extended reals (a change of float format is the identity, a matrix product into a zero accumulator the
  plain sum of products) the kernel's result at (p, j) is the eight blocks' sums added one after the other, and a sum
  over 4096 indices is the sum of its eight blocks of 512: only associativity and commutativity of addition are used,
  so the two programs agree on all inputs, finite or not, and the precondition is never opened.

  The frames: both forms of the kernel run to the end at every point, fault nowhere and leave their arguments unchanged
  (the body's run in each of its three cases, the accumulator carried from point to point); the reference's frame is
  its run with the result dropped. The idealization rewrote nothing in the kernel, so there is nothing to preserve.
-/
import proofs.«173250_g20478404067448_cont_sun_m_417_19_alg».proof.Defs
import proofs.«173250_g20478404067448_cont_sun_m_417_19_alg».proof.Proof.Gen.Kernel
import proofs.«173250_g20478404067448_cont_sun_m_417_19_alg».proof.Proof.Gen.KernelIdeal
import proofs.«173250_g20478404067448_cont_sun_m_417_19_alg».proof.Proof.Gen.ReferenceIdeal
import proofs.«173250_g20478404067448_cont_sun_m_417_19_alg».proof.Proof.Gen.Pre_finite_inputs
import proofs.«173250_g20478404067448_cont_sun_m_417_19_alg».proof.Proof.Gen.ReferenceIdeal.Run
import proofs.«173250_g20478404067448_cont_sun_m_417_19_alg».proof.Proof.Gen.ReferenceIdeal.Read
import proofs.«173250_g20478404067448_cont_sun_m_417_19_alg».proof.Proof.BitsFrame
import proofs.«173250_g20478404067448_cont_sun_m_417_19_alg».proof.Proof.IdealFrame
import proofs.«173250_g20478404067448_cont_sun_m_417_19_alg».proof.Proof.IdealValue
import proofs.«173250_g20478404067448_cont_sun_m_417_19_alg».proof.Proof.RefValue

noncomputable section

namespace Cert.Proof

open Idealize.ShloMosaic Idealize.SL.Sem

/-- The kernel as printed runs to the end and leaves its arguments unchanged. -/
theorem frame_kernel : Cert.frame_Kernel := fun m ρ _ => Cert.Kernel.Acc.frame m ρ

/-- So does its idealization. -/
theorem frame_ideal : Cert.frame_KernelIdeal := fun m ρ _ => Cert.KernelIdeal.Acc.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array ends at the layer of its arguments, and the reference's at the
    layer of its own; the arguments agree. -/
theorem algebraic : Cert.algebraic_KernelIdeal_ReferenceIdeal := by
  intro m ρ m' ρ' _ hagree
  refine ⟨fun c => Cert.KernelIdeal.AccValue.result m c, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.ref_eq_layer _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
